-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x64x256 : Shape := ⟨3, ![512, 64, 256]⟩
abbrev S512x256 : Shape := ⟨2, ![512, 256]⟩
abbrev S524288 : Shape := ⟨1, ![524288]⟩
abbrev S64 : Shape := ⟨1, ![64]⟩
abbrev S_ : Shape := ⟨0, ![]⟩

class Facts : Prop where
  bcast_S_S512x64x256 : S_.BroadcastsInDim S512x64x256 (![] : Fin 0 → Fin S512x64x256.rank)
  reducesTo_S512x64x256_S_d0_1_2 : S512x64x256.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S512x64x256 .f32) (main_arg1 : FVec F S512x256 .f32) (main_arg2 : IVec S524288 32) (main_arg3 : IVec S524288 32) (main_arg4 : IVec S524288 32) (main_arg5 : IVec S64 32) : IVec S_ 1 :=
  let main_v0 : FVec F S512x64x256 .f32 := Host.absf main_arg0
  let main_cst : FVec F S_ .f32 := constant S_ .f32 0x7F800000#32
  let main_v1 : FVec F S512x64x256 .f32 := broadcastInDim S512x64x256 ![] bcast_S_S512x64x256 main_cst
  let main_v2 : IVec S512x64x256 1 := cmpf .olt main_v0 main_v1
  let main_c : IVec S_ 1 := constantI S_ 1 1#1
  let main_v3 : IVec S_ 1 := (fun x v => Host.reduce IntOp.andi x v reducesTo_S512x64x256_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  main_v8
-- ==== Kernel.lean ====
abbrev S512x64x256 : Shape := ⟨3, ![512, 64, 256]⟩
abbrev S512x256 : Shape := ⟨2, ![512, 256]⟩
abbrev S524288 : Shape := ⟨1, ![524288]⟩
abbrev S64 : Shape := ⟨1, ![64]⟩
abbrev S64x512x256 : Shape := ⟨3, ![64, 512, 256]⟩
abbrev S_ : Shape := ⟨0, ![]⟩
abbrev S64x512x512 : Shape := ⟨3, ![64, 512, 512]⟩
abbrev S524288x1 : Shape := ⟨2, ![524288, 1]⟩
abbrev S524288x3 : Shape := ⟨2, ![524288, 3]⟩
abbrev S1x512x256 : Shape := ⟨3, ![1, 512, 256]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩

abbrev nBuf : Space → Nat
  | .hbm => 40
  | .vmem => 7
  | .smem => 0
  | _ => 0

abbrev bufTy : (tb : Table) → Fin (tcTables nBuf tb) → BufTy
  | .hbm, ⟨0, _⟩ => ⟨S512x64x256, .f32⟩
  | .hbm, ⟨1, _⟩ => ⟨S512x256, .f32⟩
  | .hbm, ⟨2, _⟩ => ⟨S524288, .i32⟩
  | .hbm, ⟨3, _⟩ => ⟨S524288, .i32⟩
  | .hbm, ⟨4, _⟩ => ⟨S524288, .i32⟩
  | .hbm, ⟨5, _⟩ => ⟨S64, .i32⟩
  | .hbm, ⟨6, _⟩ => ⟨S64x512x256, .f32⟩
  | .hbm, ⟨7, _⟩ => ⟨S64x512x256, .bf16⟩
  | .hbm, ⟨8, _⟩ => ⟨S512x256, .bf16⟩
  | .hbm, ⟨9, _⟩ => ⟨S_, .bf16⟩
  | .hbm, ⟨10, _⟩ => ⟨S64x512x512, .bf16⟩
  | .hbm, ⟨11, _⟩ => ⟨S_, .i32⟩
  | .hbm, ⟨12, _⟩ => ⟨S524288, .i32⟩
  | .hbm, ⟨13, _⟩ => ⟨S524288, .i1⟩
  | .hbm, ⟨14, _⟩ => ⟨S_, .i32⟩
  | .hbm, ⟨15, _⟩ => ⟨S524288, .i32⟩
  | .hbm, ⟨16, _⟩ => ⟨S524288, .i32⟩
  | .hbm, ⟨17, _⟩ => ⟨S524288, .i32⟩
  | .hbm, ⟨18, _⟩ => ⟨S_, .i32⟩
  | .hbm, ⟨19, _⟩ => ⟨S524288, .i32⟩
  | .hbm, ⟨20, _⟩ => ⟨S524288, .i1⟩
  | .hbm, ⟨21, _⟩ => ⟨S_, .i32⟩
  | .hbm, ⟨22, _⟩ => ⟨S524288, .i32⟩
  | .hbm, ⟨23, _⟩ => ⟨S524288, .i32⟩
  | .hbm, ⟨24, _⟩ => ⟨S524288, .i32⟩
  | .hbm, ⟨25, _⟩ => ⟨S_, .i32⟩
  | .hbm, ⟨26, _⟩ => ⟨S524288, .i32⟩
  | .hbm, ⟨27, _⟩ => ⟨S524288, .i1⟩
  | .hbm, ⟨28, _⟩ => ⟨S_, .i32⟩
  | .hbm, ⟨29, _⟩ => ⟨S524288, .i32⟩
  | .hbm, ⟨30, _⟩ => ⟨S524288, .i32⟩
  | .hbm, ⟨31, _⟩ => ⟨S524288, .i32⟩
  | .hbm, ⟨32, _⟩ => ⟨S524288x1, .i32⟩
  | .hbm, ⟨33, _⟩ => ⟨S524288x1, .i32⟩
  | .hbm, ⟨34, _⟩ => ⟨S524288x1, .i32⟩
  | .hbm, ⟨35, _⟩ => ⟨S524288x3, .i32⟩
  | .hbm, ⟨36, _⟩ => ⟨S_, .bf16⟩
  | .hbm, ⟨37, _⟩ => ⟨S524288, .bf16⟩
  | .hbm, ⟨38, _⟩ => ⟨S64x512x512, .bf16⟩
  | .hbm, ⟨39, _⟩ => ⟨S64x512x512, .f32⟩
  | .local _ .vmem, ⟨0, _⟩ => ⟨S1x512x256, .bf16⟩
  | .local _ .vmem, ⟨1, _⟩ => ⟨S1x512x256, .bf16⟩
  | .local _ .vmem, ⟨2, _⟩ => ⟨S512x256, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .f32⟩
  | .local _ .vmem, ⟨6, _⟩ => ⟨S1x512x512, .f32⟩
  | _, _ => ⟨S512x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S512x64x256_S64x512x256_1_0_2 : S512x64x256.Transposes [1, 0, 2] S64x512x256
  bitsLt_bf16_f32 : FTy.bits .bf16 < FTy.bits .f32
  bcast_S_S64x512x512 : S_.BroadcastsInDim S64x512x512 (![] : Fin 0 → Fin S64x512x512.rank)
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x1_S524288x3_d1 : Shape.Concatenates [S524288x1, S524288x1, S524288x1] S524288x3 1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  reduces_S512x512_S512 : S512x512.Reduces [1] S512
  shapeCasts_S512_S512x1 : S512.ShapeCasts S512x1
  broadcasts_S512x1_S512x512 : S512x1.Broadcasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  scatter_S64x512x512_S524288x3_S524288_n_012_012_1_wf : ScatterDims.WF S64x512x512 S524288x3 S524288 [] [0, 1, 2] [0, 1, 2] 1
  dot_S512x256_S512x256_S512x512_1_1_0_0_n_n_wf : DotDims.WF S512x256 S512x256 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S64x512x256.size a
  hwx0_0 : ∀ i : grid0.Coords, EltTy.bits .bf16 = 32 ∨ (Rect.block (s := S64x512x256) S1x512x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S64x512x512.size a
  hwx0_2 : ∀ i : grid0.Coords, EltTy.bits .bf16 = 32 ∨ (Rect.block (s := S64x512x512) S1x512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S64x512x512.size a
  hwx0_3 : ∀ i : grid0.Coords, EltTy.bits .f32 = 32 ∨ (Rect.block (s := S64x512x512) S1x512x512.size (cc0_transform_3 i) (hinb0_3 i)).WholeWords (EltTy.packing .f32)

variable [Facts₀]

def scatter_S64x512x512_S524288x3_S524288_n_012_012_1 : ScatterDims S64x512x512 S524288x3 S524288 where
  updateWindowDims := []
  insertedWindowDims := [0, 1, 2]
  scatterDimsToOperandDims := [0, 1, 2]
  indexVectorDim := 1
  wf := scatter_S64x512x512_S524288x3_S524288_n_012_012_1_wf
def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf

abbrev win0_0 : Pipeline.Window sig grid0 :=
  Pipeline.Window.ofSpec (Memref.whole main_v1) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x64x256 : Shape := ⟨3, ![512, 64, 256]⟩
abbrev S512x256 : Shape := ⟨2, ![512, 256]⟩
abbrev S524288 : Shape := ⟨1, ![524288]⟩
abbrev S64 : Shape := ⟨1, ![64]⟩
abbrev S512x64x512 : Shape := ⟨3, ![512, 64, 512]⟩
abbrev S_ : Shape := ⟨0, ![]⟩
abbrev S64x512 : Shape := ⟨2, ![64, 512]⟩
abbrev S1x64x512 : Shape := ⟨3, ![1, 64, 512]⟩
abbrev S64x512x512 : Shape := ⟨3, ![64, 512, 512]⟩
abbrev S524288x1 : Shape := ⟨2, ![524288, 1]⟩
abbrev S524288x3 : Shape := ⟨2, ![524288, 3]⟩
abbrev S64x512x1 : Shape := ⟨3, ![64, 512, 1]⟩

abbrev nBuf : Space → Nat
  | .hbm => 89
  | .vmem => 0
  | .smem => 0
  | _ => 0

abbrev bufTy : (tb : Table) → Fin (tcTables nBuf tb) → BufTy
  | .hbm, ⟨0, _⟩ => ⟨S512x64x256, .f32⟩
  | .hbm, ⟨1, _⟩ => ⟨S512x256, .f32⟩
  | .hbm, ⟨2, _⟩ => ⟨S524288, .i32⟩
  | .hbm, ⟨3, _⟩ => ⟨S524288, .i32⟩
  | .hbm, ⟨4, _⟩ => ⟨S524288, .i32⟩
  | .hbm, ⟨5, _⟩ => ⟨S64, .i32⟩
  | .hbm, ⟨6, _⟩ => ⟨S512x64x512, .f32⟩
  | .hbm, ⟨7, _⟩ => ⟨S_, .f32⟩
  | .hbm, ⟨8, _⟩ => ⟨S64x512, .f32⟩
  | .hbm, ⟨9, _⟩ => ⟨S_, .f32⟩
  | .hbm, ⟨10, _⟩ => ⟨S64x512, .f32⟩
  | .hbm, ⟨11, _⟩ => ⟨S64x512, .f32⟩
  | .hbm, ⟨12, _⟩ => ⟨S1x64x512, .f32⟩
  | .hbm, ⟨13, _⟩ => ⟨S512x64x512, .f32⟩
  | .hbm, ⟨14, _⟩ => ⟨S512x64x512, .f32⟩
  | .hbm, ⟨15, _⟩ => ⟨S512x64x512, .f32⟩
  | .hbm, ⟨16, _⟩ => ⟨S_, .f32⟩
  | .hbm, ⟨17, _⟩ => ⟨S64x512, .f32⟩
  | .hbm, ⟨18, _⟩ => ⟨S1x64x512, .f32⟩
  | .hbm, ⟨19, _⟩ => ⟨S512x64x512, .f32⟩
  | .hbm, ⟨20, _⟩ => ⟨S512x64x512, .f32⟩
  | .hbm, ⟨21, _⟩ => ⟨S64x512x512, .f32⟩
  | .hbm, ⟨22, _⟩ => ⟨S_, .f32⟩
  | .hbm, ⟨23, _⟩ => ⟨S64x512x512, .f32⟩
  | .hbm, ⟨24, _⟩ => ⟨S_, .i32⟩
  | .hbm, ⟨25, _⟩ => ⟨S524288, .i32⟩
  | .hbm, ⟨26, _⟩ => ⟨S524288, .i1⟩
  | .hbm, ⟨27, _⟩ => ⟨S_, .i32⟩
  | .hbm, ⟨28, _⟩ => ⟨S524288, .i32⟩
  | .hbm, ⟨29, _⟩ => ⟨S524288, .i32⟩
  | .hbm, ⟨30, _⟩ => ⟨S524288, .i32⟩
  | .hbm, ⟨31, _⟩ => ⟨S_, .i32⟩
  | .hbm, ⟨32, _⟩ => ⟨S524288, .i32⟩
  | .hbm, ⟨33, _⟩ => ⟨S524288, .i1⟩
  | .hbm, ⟨34, _⟩ => ⟨S_, .i32⟩
  | .hbm, ⟨35, _⟩ => ⟨S524288, .i32⟩
  | .hbm, ⟨36, _⟩ => ⟨S524288, .i32⟩
  | .hbm, ⟨37, _⟩ => ⟨S524288, .i32⟩
  | .hbm, ⟨38, _⟩ => ⟨S_, .i32⟩
  | .hbm, ⟨39, _⟩ => ⟨S524288, .i32⟩
  | .hbm, ⟨40, _⟩ => ⟨S524288, .i1⟩
  | .hbm, ⟨41, _⟩ => ⟨S_, .i32⟩
  | .hbm, ⟨42, _⟩ => ⟨S524288, .i32⟩
  | .hbm, ⟨43, _⟩ => ⟨S524288, .i32⟩
  | .hbm, ⟨44, _⟩ => ⟨S524288, .i32⟩
  | .hbm, ⟨45, _⟩ => ⟨S524288x1, .i32⟩
  | .hbm, ⟨46, _⟩ => ⟨S524288x1, .i32⟩
  | .hbm, ⟨47, _⟩ => ⟨S524288x1, .i32⟩
  | .hbm, ⟨48, _⟩ => ⟨S524288x3, .i32⟩
  | .hbm, ⟨49, _⟩ => ⟨S_, .f32⟩
  | .hbm, ⟨50, _⟩ => ⟨S524288, .f32⟩
  | .hbm, ⟨51, _⟩ => ⟨S64x512x512, .f32⟩
  | .hbm, ⟨52, _⟩ => ⟨S_, .f32⟩
  | .hbm, ⟨53, _⟩ => ⟨S64x512x512, .f32⟩
  | .hbm, ⟨54, _⟩ => ⟨S_, .i32⟩
  | .hbm, ⟨55, _⟩ => ⟨S524288, .i32⟩
  | .hbm, ⟨56, _⟩ => ⟨S524288, .i1⟩
  | .hbm, ⟨57, _⟩ => ⟨S_, .i32⟩
  | .hbm, ⟨58, _⟩ => ⟨S524288, .i32⟩
  | .hbm, ⟨59, _⟩ => ⟨S524288, .i32⟩
  | .hbm, ⟨60, _⟩ => ⟨S524288, .i32⟩
  | .hbm, ⟨61, _⟩ => ⟨S_, .i32⟩
  | .hbm, ⟨62, _⟩ => ⟨S524288, .i32⟩
  | .hbm, ⟨63, _⟩ => ⟨S524288, .i1⟩
  | .hbm, ⟨64, _⟩ => ⟨S_, .i32⟩
  | .hbm, ⟨65, _⟩ => ⟨S524288, .i32⟩
  | .hbm, ⟨66, _⟩ => ⟨S524288, .i32⟩
  | .hbm, ⟨67, _⟩ => ⟨S524288, .i32⟩
  | .hbm, ⟨68, _⟩ => ⟨S_, .i32⟩
  | .hbm, ⟨69, _⟩ => ⟨S524288, .i32⟩
  | .hbm, ⟨70, _⟩ => ⟨S524288, .i1⟩
  | .hbm, ⟨71, _⟩ => ⟨S_, .i32⟩
  | .hbm, ⟨72, _⟩ => ⟨S524288, .i32⟩
  | .hbm, ⟨73, _⟩ => ⟨S524288, .i32⟩
  | .hbm, ⟨74, _⟩ => ⟨S524288, .i32⟩
  | .hbm, ⟨75, _⟩ => ⟨S524288x1, .i32⟩
  | .hbm, ⟨76, _⟩ => ⟨S524288x1, .i32⟩
  | .hbm, ⟨77, _⟩ => ⟨S524288x1, .i32⟩
  | .hbm, ⟨78, _⟩ => ⟨S524288x3, .i32⟩
  | .hbm, ⟨79, _⟩ => ⟨S_, .f32⟩
  | .hbm, ⟨80, _⟩ => ⟨S524288, .f32⟩
  | .hbm, ⟨81, _⟩ => ⟨S64x512x512, .f32⟩
  | .hbm, ⟨82, _⟩ => ⟨S64x512x512, .f32⟩
  | .hbm, ⟨83, _⟩ => ⟨S_, .f32⟩
  | .hbm, ⟨84, _⟩ => ⟨S64x512, .f32⟩
  | .hbm, ⟨85, _⟩ => ⟨S64x512x1, .f32⟩
  | .hbm, ⟨86, _⟩ => ⟨S64x512x512, .f32⟩
  | .hbm, ⟨87, _⟩ => ⟨S64x512x512, .f32⟩
  | .hbm, ⟨88, _⟩ => ⟨S64x512x512, .f32⟩
  | _, _ => ⟨S512x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_c_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_c_10 : Ref sig .tc := ⟨.hbm, 54, rfl⟩
abbrev main_v36 : Ref sig .tc := ⟨.hbm, 55, rfl⟩
abbrev main_v37 : Ref sig .tc := ⟨.hbm, 56, rfl⟩
abbrev main_c_11 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_12 : Ref sig .tc := ⟨.hbm, 61, rfl⟩
abbrev main_v41 : Ref sig .tc := ⟨.hbm, 62, rfl⟩
abbrev main_v42 : Ref sig .tc := ⟨.hbm, 63, rfl⟩
abbrev main_c_13 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_14 : Ref sig .tc := ⟨.hbm, 68, rfl⟩
abbrev main_v46 : Ref sig .tc := ⟨.hbm, 69, rfl⟩
abbrev main_v47 : Ref sig .tc := ⟨.hbm, 70, rfl⟩
abbrev main_c_15 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_16 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_17 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩

abbrev nD : Nat := 1
abbrev τ : Topo := Topo.v7x

variable {F : FTy → Type} [FloatOps F]

class Facts₀ : Prop where
  reducesTo_S512x64x512_S64x512_d0 : S512x64x512.ReducesTo [0] S64x512
  h_S_ : 0 < S_.numel
  bcast_S_S64x512 : S_.BroadcastsInDim S64x512 (![] : Fin 0 → Fin S64x512.rank)
  bcast_S64x512_S1x64x512_1_2 : S64x512.BroadcastsInDim S1x64x512 (![1, 2] : Fin 2 → Fin S1x64x512.rank)
  bcast_S1x64x512_S512x64x512_0_1_2 : S1x64x512.BroadcastsInDim S512x64x512 (![0, 1, 2] : Fin 3 → Fin S512x64x512.rank)
  transposes_S512x64x512_S64x512x512_1_2_0 : S512x64x512.Transposes [1, 2, 0] S64x512x512
  bcast_S_S64x512x512 : S_.BroadcastsInDim S64x512x512 (![] : Fin 0 → Fin S64x512x512.rank)
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x1_S524288x3_d1 : Shape.Concatenates [S524288x1, S524288x1, S524288x1] S524288x3 1
  reducesTo_S64x512x512_S64x512_d2 : S64x512x512.ReducesTo [2] S64x512
  bcast_S64x512_S64x512x1_0_1 : S64x512.BroadcastsInDim S64x512x1 (![0, 1] : Fin 2 → Fin S64x512x1.rank)
  bcast_S64x512x1_S64x512x512_0_1_2 : S64x512x1.BroadcastsInDim S64x512x512 (![0, 1, 2] : Fin 3 → Fin S64x512x512.rank)
  dot_S512x64x256_S512x256_S512x64x512_2_1_01_0_n_n_wf : DotDims.WF S512x64x256 S512x256 S512x64x512 [2] [1] [0, 1] [0] [] []
  scatter_S64x512x512_S524288x3_S524288_n_012_012_1_wf : ScatterDims.WF S64x512x512 S524288x3 S524288 [] [0, 1, 2] [0, 1, 2] 1

variable [Facts₀]

def dot_S512x64x256_S512x256_S512x64x512_2_1_01_0_n_n : DotDims S512x64x256 S512x256 S512x64x512 where
  lhsContracting := [2]
  rhsContracting := [1]
  lhsNonContracting := [0, 1]
  rhsNonContracting := [0]
  lhsBatch := []
  rhsBatch := []
  wf := dot_S512x64x256_S512x256_S512x64x512_2_1_01_0_n_n_wf
def scatter_S64x512x512_S524288x3_S524288_n_012_012_1 : ScatterDims S64x512x512 S524288x3 S524288 where
  updateWindowDims := []
  insertedWindowDims := [0, 1, 2]
  scatterDimsToOperandDims := [0, 1, 2]
  indexVectorDim := 1
  wf := scatter_S64x512x512_S524288x3_S524288_n_012_012_1_wf

class Facts : Prop extends Facts₀ where

variable [Facts]
-- ==== Proof.FrameK.lean ====
/-
  The frame of the kernel program as printed (read at the word level), at any float instance: the host operations before the region
  (two casts of the arguments, a transpose, and the scatter that builds the 0/1 edge indicator) run, the one
  pallas_call runs its body at each of the 64 batch points, and the argument arrays end as they began.

  The body at a point loads three staging buffers whole — the batch's rows of M, all of W, the batch's slab of the
  indicator —, loads the output buffer (a value it never uses), and stores ONE whole block: the normalised masked
  softmax of W·M_bᵀ. So what the output buffer holds after the body is that one payload, a function of the three
  input blocks, and every input buffer holds its block of the array the region found, fetched at this point or not.
-/
import proofs.«136677_j962072674434_1_alg».proof.Proof.Gen.Kernel.Launch
import proofs.«136677_j962072674434_1_alg».proof.Proof.Gen.Kernel.Skeleton
import proofs.«136677_j962072674434_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- What each TensorCore buffer of core `c` holds when the region is entered: the launch contents run through the
    33 host operations. -/
abbrev V (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is those operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the host operations writes is found as launched. Each operation writes its one result
    buffer, and the six arguments are results of none. -/
theorem V_of_not_written (c : Dev nD) (b : Ref sig .tc)
    (h : ∀ op ∈ (hostOps0 : List (HloOp τ sig (Elt F))), Proc.devRef .tc b ∉ op.writes) :
    V m c b = m ((c : Thread nD τ).loc b) :=
  StableHlo.after_of_forall_not_mem (b := Proc.devRef .tc b) _ _ h

set_option maxHeartbeats 1000000 in
theorem V_main_arg0 (c : Dev nD) : V m c main_arg0 = m ((c : Thread nD τ).loc main_arg0) :=
  V_of_not_written m c main_arg0 (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
set_option maxHeartbeats 1000000 in
theorem V_main_arg1 (c : Dev nD) : V m c main_arg1 = m ((c : Thread nD τ).loc main_arg1) :=
  V_of_not_written m c main_arg1 (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
set_option maxHeartbeats 1000000 in
theorem V_main_arg2 (c : Dev nD) : V m c main_arg2 = m ((c : Thread nD τ).loc main_arg2) :=
  V_of_not_written m c main_arg2 (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
set_option maxHeartbeats 1000000 in
theorem V_main_arg3 (c : Dev nD) : V m c main_arg3 = m ((c : Thread nD τ).loc main_arg3) :=
  V_of_not_written m c main_arg3 (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
set_option maxHeartbeats 1000000 in
theorem V_main_arg4 (c : Dev nD) : V m c main_arg4 = m ((c : Thread nD τ).loc main_arg4) :=
  V_of_not_written m c main_arg4 (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
set_option maxHeartbeats 1000000 in
theorem V_main_arg5 (c : Dev nD) : V m c main_arg5 = m ((c : Thread nD τ).loc main_arg5) :=
  V_of_not_written m c main_arg5 (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

/-! ## The blocks -/

/-- Window `w`'s block at batch point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point — also at a point where the pipeline does not
    fetch it (W is fetched once: its block index never moves) — for any proof data over the region-entry arrays
    whose body leaves the block in place. One statement per input window: M's rows, W, the indicator's slab. -/
theorem before_in_0_of {c : Dev nD} (dat : Dat τ (Elt F) Unit ℕ (UR sig nD τ) ℕ cfg0 c)
    (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1_of {c : Dev nD} (dat : Dat τ (Elt F) Unit ℕ (UR sig nD τ) ℕ cfg0 c)
    (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_2_of {c : Dev nD} (dat : Dat τ (Elt F) Unit ℕ (UR sig nD τ) ℕ cfg0 c)
    (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output buffer -/

abbrev rM : Rect S1x512x256 := Rect.unit (s := S1x512x256) ![0, 0, 0] S1x512x256.size inb_S1x512x256_S1x512x256_0_0_0
abbrev rW : Rect S512x256 := Rect.unit (s := S512x256) ![0, 0] S512x256.size inb_S512x256_S512x256_0_0
abbrev rS : Rect S1x512x512 := Rect.unit (s := S1x512x512) ![0, 0, 0] S1x512x512.size inb_S1x512x512_S1x512x512_0_0_0

/-- The output staging buffer after the body, from the three input blocks: its one store, covering the buffer. -/
def outBlock (x0 : Vec F S1x512x256 .bf16) (x1 : Vec F S512x256 .bf16) (x2 : Vec F S1x512x512 .bf16) : Vec F S1x512x512 .f32 :=
  View.canon [⟨rS, k0_pay1 (View.ld x1 rW) (View.ld x0 rM) (View.ld x2 rS)⟩]

theorem outCover (p0 : Vec F S1x512x512 .f32) (y : S1x512x512.Idx) :
    ∃ pc ∈ ([⟨rS, p0⟩] : List (View.Piece (Elt F) S1x512x512 .f32)), y ∈ pc.1.set :=
  View.cover_of_tiled [⟨rS, p0⟩] S1x512x512.size (by rfl) y

/-! ## The body's triple -/

set_option maxHeartbeats 4000000 in
/-- On whole staging memrefs, the three inputs at read contents `x0 x1 x2` and the output at anything, the body runs
    to the continuation holding the inputs as they were and the output at `outBlock` of them. -/
theorem sound_kernel (c : Dev nD) (E : Set ℕ) (i : grid0.Coords)
    (arg1 : Memref sig .tc .vmem S1x512x256 .bf16) (harg1 : arg1.IsWhole) (arg2 : Memref sig .tc .vmem S512x256 .bf16) (harg2 : arg2.IsWhole)
    (arg3 : Memref sig .tc .vmem S1x512x512 .bf16) (harg3 : arg3.IsWhole) (arg4 : Memref sig .tc .vmem S1x512x512 .f32) (harg4 : arg4.IsWhole)
    (x0 : Vec F S1x512x256 .bf16) (x1 : Vec F S512x256 .bf16) (x2 : Vec F S1x512x512 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2)) -∗ K ⟨⟩))
      ⊢ wp frame (wpE (defs₀ (F := F)) Variants.none c none) E (cc0__kernel i arg1 harg1 arg2 harg2 arg3 harg3 arg4 harg4) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

/-! ## The pipeline's proof data -/

/-- On core `c`: the arrays as the region finds them; after the body at point `t` each input buffer at its block
    and the output buffer at `outBlock` of the three; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = outBlock (iblk m c 0 t) (iblk m c 1 t) (iblk m c 2 t) := by dsimp only [dats]

theorem before_0 (c : Dev nD) (t : Fin cfg0.N) (d) : (dats m 0 c).before 0 t d = iblk m c 0 t :=
  before_in_0_of m (dats m 0 c) (A_eq m c 0) (after_0 m c) t d
theorem before_1 (c : Dev nD) (t : Fin cfg0.N) (d) : (dats m 0 c).before 1 t d = iblk m c 1 t :=
  before_in_1_of m (dats m 0 c) (A_eq m c 1) (after_1 m c) t d
theorem before_2 (c : Dev nD) (t : Fin cfg0.N) (d) : (dats m 0 c).before 2 t d = iblk m c 2 t :=
  before_in_2_of m (dats m 0 c) (A_eq m c 2) (after_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; the four arrays of the pipeline end at what the proof data
    computes, every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The six argument arrays bypass the region (no window stages one) and no host operation writes one. -/
theorem args_kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c)⟩

/-- The frame: @main runs to the end and the argument arrays are unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => args_kept m r h c) (run_main m ρ)

end Cert.Kernel.Hand

end
-- ==== Proof.FrameKI.lean ====
/-
  The frame of the idealized kernel program, at any float instance: the host operations before the region
  (two casts of the arguments, a transpose, and the scatter that builds the 0/1 edge indicator) run, the one
  pallas_call runs its body at each of the 64 batch points, and the argument arrays end as they began.

  The body at a point loads three staging buffers whole — the batch's rows of M, all of W, the batch's slab of the
  indicator —, loads the output buffer (a value it never uses), and stores ONE whole block: the normalised masked
  softmax of W·M_bᵀ. So what the output buffer holds after the body is that one payload, a function of the three
  input blocks, and every input buffer holds its block of the array the region found, fetched at this point or not.
-/
import proofs.«136677_j962072674434_1_alg».proof.Proof.Gen.KernelIdeal.Launch
import proofs.«136677_j962072674434_1_alg».proof.Proof.Gen.KernelIdeal.Skeleton
import proofs.«136677_j962072674434_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- What each TensorCore buffer of core `c` holds when the region is entered: the launch contents run through the
    33 host operations. -/
abbrev V (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is those operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the host operations writes is found as launched. Each operation writes its one result
    buffer, and the six arguments are results of none. -/
theorem V_of_not_written (c : Dev nD) (b : Ref sig .tc)
    (h : ∀ op ∈ (hostOps0 : List (HloOp τ sig (Elt F))), Proc.devRef .tc b ∉ op.writes) :
    V m c b = m ((c : Thread nD τ).loc b) :=
  StableHlo.after_of_forall_not_mem (b := Proc.devRef .tc b) _ _ h

set_option maxHeartbeats 1000000 in
theorem V_main_arg0 (c : Dev nD) : V m c main_arg0 = m ((c : Thread nD τ).loc main_arg0) :=
  V_of_not_written m c main_arg0 (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
set_option maxHeartbeats 1000000 in
theorem V_main_arg1 (c : Dev nD) : V m c main_arg1 = m ((c : Thread nD τ).loc main_arg1) :=
  V_of_not_written m c main_arg1 (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
set_option maxHeartbeats 1000000 in
theorem V_main_arg2 (c : Dev nD) : V m c main_arg2 = m ((c : Thread nD τ).loc main_arg2) :=
  V_of_not_written m c main_arg2 (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
set_option maxHeartbeats 1000000 in
theorem V_main_arg3 (c : Dev nD) : V m c main_arg3 = m ((c : Thread nD τ).loc main_arg3) :=
  V_of_not_written m c main_arg3 (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
set_option maxHeartbeats 1000000 in
theorem V_main_arg4 (c : Dev nD) : V m c main_arg4 = m ((c : Thread nD τ).loc main_arg4) :=
  V_of_not_written m c main_arg4 (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
set_option maxHeartbeats 1000000 in
theorem V_main_arg5 (c : Dev nD) : V m c main_arg5 = m ((c : Thread nD τ).loc main_arg5) :=
  V_of_not_written m c main_arg5 (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

/-! ## The blocks -/

/-- Window `w`'s block at batch point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point — also at a point where the pipeline does not
    fetch it (W is fetched once: its block index never moves) — for any proof data over the region-entry arrays
    whose body leaves the block in place. One statement per input window: M's rows, W, the indicator's slab. -/
theorem before_in_0_of {c : Dev nD} (dat : Dat τ (Elt F) Unit ℕ (UR sig nD τ) ℕ cfg0 c)
    (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1_of {c : Dev nD} (dat : Dat τ (Elt F) Unit ℕ (UR sig nD τ) ℕ cfg0 c)
    (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_2_of {c : Dev nD} (dat : Dat τ (Elt F) Unit ℕ (UR sig nD τ) ℕ cfg0 c)
    (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output buffer -/

abbrev rM : Rect S1x512x256 := Rect.unit (s := S1x512x256) ![0, 0, 0] S1x512x256.size inb_S1x512x256_S1x512x256_0_0_0
abbrev rW : Rect S512x256 := Rect.unit (s := S512x256) ![0, 0] S512x256.size inb_S512x256_S512x256_0_0
abbrev rS : Rect S1x512x512 := Rect.unit (s := S1x512x512) ![0, 0, 0] S1x512x512.size inb_S1x512x512_S1x512x512_0_0_0

/-- The output staging buffer after the body, from the three input blocks: its one store, covering the buffer. -/
def outBlock (x0 : Vec F S1x512x256 .bf16) (x1 : Vec F S512x256 .bf16) (x2 : Vec F S1x512x512 .bf16) : Vec F S1x512x512 .f32 :=
  View.canon [⟨rS, k0_pay1 (View.ld x1 rW) (View.ld x0 rM) (View.ld x2 rS)⟩]

theorem outCover (p0 : Vec F S1x512x512 .f32) (y : S1x512x512.Idx) :
    ∃ pc ∈ ([⟨rS, p0⟩] : List (View.Piece (Elt F) S1x512x512 .f32)), y ∈ pc.1.set :=
  View.cover_of_tiled [⟨rS, p0⟩] S1x512x512.size (by rfl) y

/-! ## The body's triple -/

set_option maxHeartbeats 4000000 in
/-- On whole staging memrefs, the three inputs at read contents `x0 x1 x2` and the output at anything, the body runs
    to the continuation holding the inputs as they were and the output at `outBlock` of them. -/
theorem sound_kernel (c : Dev nD) (E : Set ℕ) (i : grid0.Coords)
    (arg1 : Memref sig .tc .vmem S1x512x256 .bf16) (harg1 : arg1.IsWhole) (arg2 : Memref sig .tc .vmem S512x256 .bf16) (harg2 : arg2.IsWhole)
    (arg3 : Memref sig .tc .vmem S1x512x512 .bf16) (harg3 : arg3.IsWhole) (arg4 : Memref sig .tc .vmem S1x512x512 .f32) (harg4 : arg4.IsWhole)
    (x0 : Vec F S1x512x256 .bf16) (x1 : Vec F S512x256 .bf16) (x2 : Vec F S1x512x512 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2)) -∗ K ⟨⟩))
      ⊢ wp frame (wpE (defs₀ (F := F)) Variants.none c none) E (cc0__kernel i arg1 harg1 arg2 harg2 arg3 harg3 arg4 harg4) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

/-! ## The pipeline's proof data -/

/-- On core `c`: the arrays as the region finds them; after the body at point `t` each input buffer at its block
    and the output buffer at `outBlock` of the three; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = outBlock (iblk m c 0 t) (iblk m c 1 t) (iblk m c 2 t) := by dsimp only [dats]

theorem before_0 (c : Dev nD) (t : Fin cfg0.N) (d) : (dats m 0 c).before 0 t d = iblk m c 0 t :=
  before_in_0_of m (dats m 0 c) (A_eq m c 0) (after_0 m c) t d
theorem before_1 (c : Dev nD) (t : Fin cfg0.N) (d) : (dats m 0 c).before 1 t d = iblk m c 1 t :=
  before_in_1_of m (dats m 0 c) (A_eq m c 1) (after_1 m c) t d
theorem before_2 (c : Dev nD) (t : Fin cfg0.N) (d) : (dats m 0 c).before 2 t d = iblk m c 2 t :=
  before_in_2_of m (dats m 0 c) (A_eq m c 2) (after_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; the four arrays of the pipeline end at what the proof data
    computes, every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The six argument arrays bypass the region (no window stages one) and no host operation writes one. -/
theorem args_kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c)⟩

/-- The frame: @main runs to the end and the argument arrays are unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => args_kept m r h c) (run_main m ρ)

end Cert.KernelIdeal.Hand

end
-- ==== Proof.LibScatterMap.lean ====
/-
  A scatter whose combiner returns the update (`x.at[idx].set(u)`, printed `Host.scatter d (fun _ b => b)`) commutes with
  applying one function to every element: scattering the mapped updates into the mapped operand is mapping the
  scattered result.  The scatter is a left fold over the update positions; each step either leaves the array alone
  (the position falls outside the operand) or overwrites one element with an update, and which of the two it does
  is read off the index operand only, never off the values.  So the same positions are written whatever the
  element type, and duplicated positions need no care: the same update wins on both sides.

  Use: two scatters of constants at the same indices (a 0/1 indicator and a mask of two other constants) are related
  by the function sending one pair of constants to the other.
-/
import Idealize.ShloMosaic.PureOps.Ideal

namespace Cert.LibScatterMap

open Idealize.ShloMosaic

/-- Scattering `g ∘ upd` into `g ∘ x` is `g` of scattering `upd` into `x`, for any dimension numbers, shapes, index
    width and element types. -/
theorem scatter_set_map {α β : Type} {s si u : Shape} {w : Nat} (d : ScatterDims s si u) (g : α → β)
    (x : s.Idx → α) (idx : IVec si w) (upd : u.Idx → α) :
    Host.scatter d (fun _ b => b) (fun i => g (x i)) idx (fun j => g (upd j))
      = fun i => g (Host.scatter d (fun _ b => b) x idx upd i) := by
  unfold Host.scatter
  generalize List.finRange u.numel = l
  induction l generalizing x with
  | nil => rfl
  | cons n l ih =>
    rw [List.foldl_cons, List.foldl_cons]
    generalize d.resultIdx? (u.rowMajor.symm n) idx = o
    cases o with
    | none => exact ih x
    | some i =>
      have hstep : (fun i' => if i' = i then g (upd (u.rowMajor.symm n)) else g (x i'))
          = fun i' => g ((fun i' => if i' = i then upd (u.rowMajor.symm n) else x i') i') :=
        funext fun i' => by by_cases h : i' = i <;> simp [h]
      exact (congrArg (fun r => List.foldl _ r l) hstep).trans (ih _)

/-- The constant case: scattering the constant `g b` into the constant array `g a` is `g` of scattering `b` into
    the constant array `a`. -/
theorem scatter_const_map {α β : Type} {s si u : Shape} {w : Nat} (d : ScatterDims s si u) (g : α → β) (a b : α)
    (idx : IVec si w) :
    Host.scatter d (fun _ b => b) (fun _ : s.Idx => g a) idx (fun _ : u.Idx => g b)
      = fun i => g (Host.scatter d (fun _ b => b) (fun _ : s.Idx => a) idx (fun _ : u.Idx => b) i) :=
  scatter_set_map d g (fun _ => a) idx (fun _ => b)

end Cert.LibScatterMap
-- ==== Proof.Spec.lean ====
/-
  What both programs compute, as one function on the extended reals, and the two facts about the edge masks.

  For one batch, let `sc k s` be the score of key row k against sequence position s, and `ind k s` the edge
  indicator (1 where some edge (b, k, s) was listed, 0 elsewhere).  The softmax over s of row k is
  exp (sc k s − max_s sc k s) divided by the sum of those exponentials; it is multiplied by the edge weight
  (1 on an edge, 1e-10 off it), renormalised along s, and multiplied by the indicator.  That is `rowOut`.

  The kernel gets the edge weight from the indicator by a comparison with 0; the reference builds a second array
  by scattering 1 into a constant 1e-10 array at the same positions.  The two agree because a scatter whose
  combiner returns the update commutes with applying one function to every element of the operand and of the
  updates (LibScatterMap): which positions are written never depends on the values.
-/
import Idealize.ShloMosaic.PureOps.Ideal.Laws
import Idealize.ShloMosaic.Lib.ValueIdx
import proofs.«136677_j962072674434_1_alg».proof.Proof.LibScatterMap

noncomputable section

namespace Cert.EdgeAttn

open Idealize.ShloMosaic Idealize.ShloMosaic.ValueIdx

/-! ## The literals -/

theorem f32_zero : Ideal.ofBits .f32 0x00000000#32 = 0 := by simp [Ideal.ofBits, Ideal.ieee]
theorem f32_one : Ideal.ofBits .f32 0x3F800000#32 = 1 := by simp [Ideal.ofBits, Ideal.ieee, -EReal.coe_mul]; norm_num
theorem bf16_zero : Ideal.ofBits .bf16 0x0000#16 = 0 := by simp [Ideal.ofBits, Ideal.ieee]
theorem bf16_one : Ideal.ofBits .bf16 0x3F80#16 = 1 := by simp [Ideal.ofBits, Ideal.ieee, -EReal.coe_mul]; norm_num

/-! ## The row formula -/

/-- −∞ as the programs spell it: the value both row maxima start from. -/
abbrev negInf : EReal := Ideal.ofBits .f32 0xFF800000#32

/-- The weight of an entry: 1 where the indicator is positive, the literal 1e-10 elsewhere. -/
def edgeWeight (x : EReal) : EReal :=
  Scalar.select (Ideal.cmp .ogt x (Ideal.ofBits .f32 0x00000000#32)) (Ideal.ofBits .f32 0x3F800000#32) (Ideal.ofBits .f32 0x2EDBE6FF#32)

/-- The maximum of row k of the scores. -/
def rowMax (sc : Fin 512 → Fin 512 → EReal) (k : Fin 512) : EReal :=
  (Finset.univ : Finset (Fin 512)).fold max negInf (fun s' => sc k s')

/-- The softmax of row k at s. -/
def rowSoft (sc : Fin 512 → Fin 512 → EReal) (k s : Fin 512) : EReal :=
  Ideal.div (Ideal.exp (sc k s - rowMax sc k)) (∑ s' : Fin 512, Ideal.exp (sc k s' - rowMax sc k))

/-- The softmax weighted by the edge weight. -/
def rowMasked (sc ind : Fin 512 → Fin 512 → EReal) (k s : Fin 512) : EReal :=
  rowSoft sc k s * edgeWeight (ind k s)

/-- The result: the weighted softmax renormalised along s, times the indicator. -/
def rowOut (sc ind : Fin 512 → Fin 512 → EReal) (k s : Fin 512) : EReal :=
  Ideal.div (rowMasked sc ind k s) (∑ s' : Fin 512, rowMasked sc ind k s') * ind k s

/-- The weight off an edge is the literal 1e-10 … -/
theorem edgeWeight_zero : edgeWeight 0 = Ideal.ofBits .f32 0x2EDBE6FF#32 := by
  unfold edgeWeight
  rw [f32_zero]
  simp [Ideal.cmp, Scalar.select]

/-- … and on an edge it is 1. -/
theorem edgeWeight_one : edgeWeight 1 = 1 := by
  unfold edgeWeight
  rw [f32_zero, f32_one]
  simp [Ideal.cmp, Scalar.select]

/-! ## The two masks -/

/-- Scattering 1 into a constant 1e-10 array is the edge weight of scattering 1 into a constant 0 array. -/
theorem weight_of_indicator {s si u : Shape} {w : Nat} (d : ScatterDims s si u) (idx : IVec si w) :
    Host.scatter d (fun _ b => b) (fun _ : s.Idx => Ideal.ofBits .f32 0x2EDBE6FF#32) idx (fun _ : u.Idx => (1 : EReal))
      = fun i => edgeWeight (Host.scatter d (fun _ b => b) (fun _ : s.Idx => (0 : EReal)) idx (fun _ : u.Idx => (1 : EReal)) i) := by
  rw [← Cert.LibScatterMap.scatter_const_map d edgeWeight (0 : EReal) (1 : EReal) idx]
  simp only [edgeWeight_zero, edgeWeight_one]

end Cert.EdgeAttn

end
-- ==== Proof.LibDotNT.lean ====
/-
  A matrix product that contracts the LAST axis of both operands, [M,K] × [N,K] → [M,N] (the right operand used
  transposed: q·kᵀ, x·Wᵀ), accumulated into the zero matrix and read at (i, j) over the extended reals:
  the sum over k of l(i,k) · r(j,k).
-/
import Idealize.ShloMosaic.PureOps.Ideal.Laws
import Idealize.ShloMosaic.Lib.ValueIdx

namespace Idealize.ShloMosaic.ValueIdx

open Idealize.ShloMosaic

/-- A `tpu.matmul` with dimension numbers ⟨[1],[1],[0],[0],[],[]⟩ into the zero accumulator, at `(i, j)`, is
    `∑ k, l (i, k) * r (j, k)`. The record is any with those dimension numbers (`hr`, `hs`: its contraction shape has one
    axis of extent `K`; for a printed record both are `rfl`). -/
theorem matmul_nt_zero_apply {M N K : ℕ} {φ₁ φ₂ : FTy}
    (D : DotDims (⟨2, ![M, K]⟩ : Shape) ⟨2, ![N, K]⟩ ⟨2, ![M, N]⟩)
    (hlc : D.lhsContracting = [1]) (hrc : D.rhsContracting = [1])
    (hln : D.lhsNonContracting = [0]) (hrn : D.rhsNonContracting = [0])
    (hlb : D.lhsBatch = []) (hrb : D.rhsBatch = [])
    (hr : D.contr.rank = 1) (hs : D.contr.size ⟨0, by omega⟩ = K)
    (prec : Option ContractPrecision)
    (l : FVec Ideal (⟨2, ![M, K]⟩ : Shape) φ₁) (r : FVec Ideal (⟨2, ![N, K]⟩ : Shape) φ₂) (i : Fin M) (j : Fin N) :
    FloatOps.matmul D prec l r (constant (⟨2, ![M, N]⟩ : Shape) .f32 0x00000000#32) (ix2 i j)
      = ∑ k : Fin K, l (ix2 i k) * r (ix2 j k) := by
  rw [Ideal.matmul_constant_zero_apply, ← Equiv.sum_comp (contrEquiv1 D K hr hs).symm]
  refine Finset.sum_congr rfl fun k _ => ?_
  have hk := contrEquiv1_symm_val D K hr hs k
  have key : ∀ (p : ℕ) (hp : p < (⟨2, ![M, N]⟩ : Shape).rank) (q : Fin 2), p = q.val → ((ix2 i j) ⟨p, hp⟩).val = ((ix2 i j) q).val :=
    fun p hp q h => by subst h; rfl
  have el : D.lhsIdx (ix2 i j) ((contrEquiv1 D K hr hs).symm k) = ix2 i k := funext fun a => Fin.ext (by
    match a with
    | ⟨0, _⟩ =>
      unfold DotDims.lhsIdx
      rw [dif_neg (by rw [hlb]; exact List.not_mem_nil), dif_pos (by rw [hln]; exact List.mem_singleton.mpr rfl)]
      simp only [Fin.val_cast]
      exact key _ _ 0 (by simp [hlb, hln])
    | ⟨1, _⟩ => exact (D.lhsIdx_val_of_single hlc _ _).trans hk)
  have er : D.rhsIdx (ix2 i j) ((contrEquiv1 D K hr hs).symm k) = ix2 j k := funext fun a => Fin.ext (by
    match a with
    | ⟨0, _⟩ =>
      unfold DotDims.rhsIdx
      rw [dif_neg (by rw [hrb]; exact List.not_mem_nil), dif_pos (by rw [hrn]; exact List.mem_singleton.mpr rfl)]
      simp only [Fin.val_cast]
      exact key _ _ 1 (by simp [hlb, hln, hrn])
    | ⟨1, _⟩ => exact (D.rhsIdx_val_of_single hrc _ _).trans hk)
  rw [el, er]

end Idealize.ShloMosaic.ValueIdx
-- ==== Proof.LibRowSum.lean ====
/-
  Indices named by their coordinates, and a sum along the second axis of a matrix read at a row.

  An index of a rank-1 or rank-2 shape is determined by its coordinates' values, whatever term spells it (a composed
  index map of a broadcast, a lifted index of a reduction, a block's embedded index).  A lane reduction
  `multi_reduction <add>` of an [a, K] array along its second axis, from the zero word, read at row r over the
  extended reals, is the sum over k of the entries (r, k).
-/
import Idealize.ShloMosaic.PureOps.Ideal.Laws
import Idealize.ShloMosaic.Lib.ValueIdx

namespace Idealize.ShloMosaic.ValueIdx

open Idealize.ShloMosaic

/-- An index of a rank-2 shape is the one with the same two coordinates. -/
theorem idx2_ext {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- An index of a rank-1 shape is the one with the same coordinate. -/
theorem idx1_ext {n : Nat} (j : (⟨1, ![n]⟩ : Shape).Idx) (a : Fin n) (h0 : (j 0).val = a.val) : j = ix1 a :=
  funext fun d => Fin.ext (by match d with | ⟨0, _⟩ => exact h0)

/-- A sum along the second axis of an [a, K] array, from the zero word, read at row `r`: `∑ k, src (r, k)`. The shape
    fact, the format fact and the accumulator's neutrality are whatever proofs the printed operation carries. -/
theorem multiReduction_add_rows_apply {a K : ℕ} (src : FVec Ideal ⟨2, ![a, K]⟩ .f32)
    (hr : (⟨2, ![a, K]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 hr hφ hacc (ix1 r) = ∑ k : Fin K, src (ix2 r k) :=
  (Ideal.multiReduction_add_single src _ hr hφ hacc (ix1 r)).trans
    (Finset.sum_congr rfl fun k _ => congrArg src (idx2_ext _ r k rfl rfl))

end Idealize.ShloMosaic.ValueIdx
-- ==== Proof.LibColumn.lean ====
/-
  Layout operations of a keepdims row reduction, read at an index given by coordinates: a vector [a] viewed as the
  column [a, 1], and that column broadcast along the second axis to [a, b]. (The library's layout file has the row
  forms [a] → [1, a] and [1, b] → [a, b]; these are the column ones, in the same style.)
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelRow.lean ====
/-
  The kernel body's arithmetic, read at an index, over the extended reals.

  The payload the body stores is, stage by stage: the score matrix W·M_bᵀ (a product contracting the feature axis
  of both operands), a column holding each row's maximum and a column holding each row's sum (a reduction along
  the second axis, viewed as a [512, 1] column and broadcast back), the indicator block widened to f32, and the
  pointwise chain around them.  Each stage read at (k, s) is the corresponding piece of `rowOut`.
-/
import proofs.«136677_j962072674434_1_alg».proof.Proof.Gen.KernelIdeal.Skeleton
import proofs.«136677_j962072674434_1_alg».proof.Proof.Spec
import proofs.«136677_j962072674434_1_alg».proof.Proof.LibDotNT
import proofs.«136677_j962072674434_1_alg».proof.Proof.LibRowSum
import proofs.«136677_j962072674434_1_alg».proof.Proof.LibColumn
import Idealize.ShloMosaic.Lib.ValueLayout
import Idealize.ShloMosaic.Lib.Pipeline.Value

noncomputable section

namespace Cert.KernelIdeal.RowValue

open Cert.KernelIdeal Cert.KernelIdeal.Gen Cert.EdgeAttn
open Idealize.ShloMosaic Idealize.ShloMosaic.ValueIdx

/-! ## The stages -/

/-- The scores of one batch: W against the batch's rows of M, contracting the feature axis. -/
def scoreMat (v0 : FVec Ideal S512x256 .bf16) (v2 : FVec Ideal S1x512x256 .bf16) : FVec Ideal S512x512 .f32 :=
  matmul dot_S512x256_S512x256_S512x512_1_1_0_0_n_n none (shapeCast S512x256 v0 shapeCasts_S512x256_S512x256)
    (shapeCast S512x256 v2 shapeCasts_S1x512x256_S512x256) (constant S512x512 .f32 0x00000000#32)

/-- Each row's maximum, laid along the row. -/
def colMax (x : FVec Ideal S512x512 .f32) : FVec Ideal S512x512 .f32 :=
  broadcastTo S512x512 (shapeCast S512x1 (multiReduction .maximumf [1] S512 x 0xFF800000#32 reduces_S512x512_S512 (.inl rfl) rfl)
    shapeCasts_S512_S512x1) broadcasts_S512x1_S512x512

/-- Each row's sum, laid along the row. -/
def colSum (x : FVec Ideal S512x512 .f32) : FVec Ideal S512x512 .f32 :=
  broadcastTo S512x512 (shapeCast S512x1 (multiReduction .add [1] S512 x 0x00000000#32 reduces_S512x512_S512 (.inl rfl) rfl)
    shapeCasts_S512_S512x1) broadcasts_S512x1_S512x512

/-- The batch's slab of the indicator, as a matrix of f32. -/
def indMat (v14 : FVec Ideal S1x512x512 .bf16) : FVec Ideal S512x512 .f32 :=
  extf .f32 (shapeCast S512x512 v14 shapeCasts_S1x512x512_S512x512) bitsLt_bf16_f32

/-- The pointwise chain: softmax along the rows, the edge weight, the renormalisation, the indicator. -/
def outMat (x ind : FVec Ideal S512x512 .f32) : FVec Ideal S512x512 .f32 :=
  mulf (divf (mulf (divf (exp (subf x (colMax x))) (colSum (exp (subf x (colMax x)))))
        (select (cmpf .ogt ind (broadcast S512x512 (Scalar.ofBits .f32 0x00000000#32)))
          (broadcast S512x512 (Scalar.ofBits .f32 0x3F800000#32)) (broadcast S512x512 (Scalar.ofBits .f32 0x2EDBE6FF#32))))
      (colSum (mulf (divf (exp (subf x (colMax x))) (colSum (exp (subf x (colMax x)))))
        (select (cmpf .ogt ind (broadcast S512x512 (Scalar.ofBits .f32 0x00000000#32)))
          (broadcast S512x512 (Scalar.ofBits .f32 0x3F800000#32)) (broadcast S512x512 (Scalar.ofBits .f32 0x2EDBE6FF#32))))))
    ind

/-- The payload the body stores is these stages composed. -/
theorem pay_eq (v0 : Vec Ideal S512x256 .bf16) (v2 : Vec Ideal S1x512x256 .bf16) (v14 : Vec Ideal S1x512x512 .bf16) :
    k0_pay1 (F := Ideal) v0 v2 v14
      = shapeCast S1x512x512 (outMat (scoreMat v0 v2) (indMat v14)) shapeCasts_S512x512_S1x512x512 := rfl

/-! ## Each stage at an index -/

/-- The score of key row k against position s: the sum over the features of W(k, d) · M_b(s, d). -/
theorem scoreMat_apply (v0 : FVec Ideal S512x256 .bf16) (v2 : FVec Ideal S1x512x256 .bf16) (k s : Fin 512) :
    scoreMat v0 v2 (ix2 k s) = ∑ d : Fin 256, v0 (ix2 k d) * v2 (ix3 (0 : Fin 1) s d) := by
  unfold scoreMat
  refine (matmul_nt_zero_apply (M := 512) (N := 512) (K := 256) dot_S512x256_S512x256_S512x512_1_1_0_0_n_n
    rfl rfl rfl rfl rfl rfl rfl rfl none _ _ k s).trans ?_
  refine Finset.sum_congr rfl fun d _ => ?_
  rw [shapeCast_self, shapeCast_1ab_ab_apply]

/-- The row-maximum column at (k, s) is the maximum of row k. -/
theorem colMax_apply (x : FVec Ideal S512x512 .f32) (k s : Fin 512) :
    colMax x (ix2 k s) = rowMax (fun k s => x (ix2 k s)) k := by
  unfold colMax rowMax
  rw [broadcastTo_a1_ab_apply, shapeCast_a_a1_apply]
  refine (Ideal.multiReduction_maximumf_single x _ reduces_S512x512_S512 (.inl rfl) rfl (ix1 k)).trans ?_
  have hf : (x ∘ reduces_S512x512_S512.lift (ix1 k)) = fun s' : Fin 512 => x (ix2 k s') :=
    funext fun s' => congrArg x (idx2_ext _ k s' rfl rfl)
  exact congrArg (fun f => Finset.fold max negInf f (Finset.univ : Finset (Fin 512))) hf

/-- The row-sum column at (k, s) is the sum of row k. -/
theorem colSum_apply (x : FVec Ideal S512x512 .f32) (k s : Fin 512) :
    colSum x (ix2 k s) = ∑ s' : Fin 512, x (ix2 k s') := by
  unfold colSum
  rw [broadcastTo_a1_ab_apply, shapeCast_a_a1_apply]
  exact multiReduction_add_rows_apply x reduces_S512x512_S512 (.inl rfl) rfl k

/-- The indicator matrix at (k, s) is the slab's entry (0, k, s). -/
theorem indMat_apply (v14 : FVec Ideal S1x512x512 .bf16) (k s : Fin 512) :
    indMat v14 (ix2 k s) = v14 (ix3 (0 : Fin 1) k s) :=
  shapeCast_1ab_ab_apply v14 shapeCasts_S1x512x512_S512x512 k s

/-- An exponential at an index is the exponential of the element. -/
theorem exp_at {s : Shape} {φ : FTy} (a : FVec Ideal s φ) (i : s.Idx) : exp a i = Ideal.exp (a i) := rfl

/-- The comparison with 0 and the choice between 1 and 1e-10, at an index, is the edge weight of the element. -/
theorem weight_at (ind : FVec Ideal S512x512 .f32) (i : S512x512.Idx) :
    (select (cmpf .ogt ind (broadcast S512x512 (FloatOps.ofBits (F := Ideal) .f32 0x00000000#32)))
        (broadcast S512x512 (FloatOps.ofBits (F := Ideal) .f32 0x3F800000#32))
        (broadcast S512x512 (FloatOps.ofBits (F := Ideal) .f32 0x2EDBE6FF#32)) i : EReal)
      = edgeWeight (ind i) := rfl

/-- The pointwise chain at (k, s) is the row formula of the scores and the indicator. -/
theorem outMat_apply (x ind : FVec Ideal S512x512 .f32) (k s : Fin 512) :
    outMat x ind (ix2 k s) = rowOut (fun k s => x (ix2 k s)) (fun k s => ind (ix2 k s)) k s := by
  unfold outMat rowOut rowMasked rowSoft
  simp only [mulf_apply, divf_apply, subf_apply, exp_at, weight_at, colSum_apply, colMax_apply]

/-- The stored payload at (0, k, s): the row formula of the batch's scores and indicator slab. -/
theorem pay_apply (v0 : Vec Ideal S512x256 .bf16) (v2 : Vec Ideal S1x512x256 .bf16) (v14 : Vec Ideal S1x512x512 .bf16)
    (u : Fin 1) (k s : Fin 512) :
    k0_pay1 (F := Ideal) v0 v2 v14 (ix3 u k s)
      = rowOut (fun k s => ∑ d : Fin 256, v0 (ix2 k d) * v2 (ix3 (0 : Fin 1) s d)) (fun k s => v14 (ix3 (0 : Fin 1) k s)) k s := by
  rw [pay_eq, shapeCast_ab_1ab_apply, outMat_apply]
  simp only [scoreMat_apply, indMat_apply]

end Cert.KernelIdeal.RowValue

end
-- ==== Proof.KernelEntry.lean ====
/-
  What the idealized kernel's region finds, and the blocks the pipeline hands the body.

  Three arrays are written by the host operations before the region: M with its first two axes exchanged (and
  narrowed to bf16, which changes nothing over the extended reals), W (narrowed likewise), and the 0/1 edge
  indicator.  At batch point t the body gets row t of the exchanged M, all of W, and slab t of the indicator.
-/
import proofs.«136677_j962072674434_1_alg».proof.Proof.FrameKI
import proofs.«136677_j962072674434_1_alg».proof.Proof.KernelRow
import Idealize.ShloMosaic.Lib.Pipeline.Value
import Idealize.ShloMosaic.Lib.StableHlo.Run
import Idealize.ShloMosaic.PureOps.Ideal

set_option maxRecDepth 16384

noncomputable section

namespace Cert.EdgeAttn

open Idealize.ShloMosaic Idealize.ShloMosaic.ValueIdx

/-- The result at (b, k, s), from M [s, b, d], W [k, d] and the indicator [b, k, s]. -/
def resultAt (M : (⟨3, ![512, 64, 256]⟩ : Shape).Idx → EReal) (W : (⟨2, ![512, 256]⟩ : Shape).Idx → EReal)
    (I : (⟨3, ![64, 512, 512]⟩ : Shape).Idx → EReal) (b : Fin 64) (k s : Fin 512) : EReal :=
  rowOut (fun k s => ∑ d : Fin 256, W (ix2 k d) * M (ix3 s b d)) (fun k s => I (ix3 b k s)) k s

/-- The result array. -/
def resultArr (M : (⟨3, ![512, 64, 256]⟩ : Shape).Idx → EReal) (W : (⟨2, ![512, 256]⟩ : Shape).Idx → EReal)
    (I : (⟨3, ![64, 512, 512]⟩ : Shape).Idx → EReal) : (⟨3, ![64, 512, 512]⟩ : Shape).Idx → EReal :=
  fun i => resultAt M W I (i 0) (i 1) (i 2)

end Cert.EdgeAttn

namespace Cert.KernelIdeal.ArrayValue

open Cert.KernelIdeal Cert.KernelIdeal.Gen Cert.KernelIdeal.Hand Cert.KernelIdeal.RowValue Cert.EdgeAttn
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The arrays the region finds -/

set_option maxHeartbeats 2000000 in
/-- The region finds M with its first two axes exchanged (and narrowed): at (b, s, d) it is M at (s, b, d). -/
theorem V_v1_apply (c : Dev nD) (b : Fin 64) (s : Fin 512) (d : Fin 256) :
    (V m c main_v1 : S64x512x256.Idx → EReal) (ix3 b s d) = (m ((c : Thread nD τ).loc main_arg0) : S512x64x256.Idx → EReal) (ix3 s b d) := by
  dsimp only [V, hostOps0]
  after_results
  show transpose S64x512x256 [1, 0, 2] _ transposes_S512x64x256_S64x512x256_1_0_2 (ix3 b s d) = _
  exact transpose_apply _ _ _ _ _ fun a => match a with | ⟨0, _⟩ => rfl | ⟨1, _⟩ => rfl | ⟨2, _⟩ => rfl

set_option maxHeartbeats 2000000 in
/-- The region finds W narrowed: the same extended reals. -/
theorem V_v2_apply (c : Dev nD) (i : S512x256.Idx) :
    (V m c main_v2 : S512x256.Idx → EReal) i = (m ((c : Thread nD τ).loc main_arg1) : S512x256.Idx → EReal) i := by
  dsimp only [V, hostOps0]
  after_results
  rfl

/-- The 0/1 edge indicator as the region finds it. -/
abbrev indicator (c : Dev nD) : S64x512x512.Idx → EReal := V m c main_v24

/-! ## The index maps over the grid -/

/-- On the one-axis grid of 64 points, the coordinate of point t is t. -/
theorem coord_val (t : Fin cfg0.N) : (grid0.coords t 0).val = t.val := by
  have ht : t.val < 64 := lt_of_lt_of_eq t.isLt (show cfg0.N = 64 from N_0)
  show t.val / grid0.stride 0 % grid0.bound 0 = t.val
  rw [show grid0.stride 0 = 1 from by decide, show grid0.bound 0 = 64 from rfl]
  omega

/-- A grid coordinate passed through the index maps' 32-bit word is itself: it is below 64. -/
theorem word_val (t : Fin cfg0.N) : (BitVec.ofNat 32 (grid0.coords t 0).val).toNat = t.val := by
  have ht : t.val < 64 := lt_of_lt_of_eq t.isLt (show cfg0.N = 64 from N_0)
  rw [BitVec.toNat_ofNat, coord_val]
  omega

/-- Point t fetches row t of the exchanged M, all of W, slab t of the indicator, and writes slab t of the result:
    each index map returns the grid coordinate on the batch axis (or 0, for W) and 0 on the others. -/
theorem idx_facts (t : Fin cfg0.N) :
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  ⟨word_val t, rfl, rfl, rfl, rfl, word_val t, rfl, rfl, word_val t, rfl, rfl⟩

/-- A batch point as a batch number. -/
abbrev batch (t : Fin cfg0.N) : Fin 64 := ⟨t.val, lt_of_lt_of_eq t.isLt (show cfg0.N = 64 from N_0)⟩

/-! ## The blocks at a point -/

/-- Row t of the exchanged M at (0, s, d) is M at (s, t, d). -/
theorem iblk_M (c : Dev nD) (t : Fin cfg0.N) (u : Fin 1) (s : Fin 512) (d : Fin 256) :
    (iblk m c 0 t : S1x512x256.Idx → EReal) (ix3 u s d) = (m ((c : Thread nD τ).loc main_arg0) : S512x64x256.Idx → EReal) (ix3 s (batch t) d) := by
  obtain ⟨e0, e1, e2, -⟩ := idx_facts t
  unfold iblk
  rw [View.read_apply]
  show (V m c main_v1 : S64x512x256.Idx → EReal) (((cfg0.win 0).blk t).view.emb (ix3 u s d)) = _
  have he : ((cfg0.win 0).blk t).view.emb (ix3 u s d) = ix3 (batch t) s d := by
    funext a; apply Fin.ext
    have hu : u.val = 0 := by omega
    match a with
    | ⟨0, _⟩ => show win0_0.index t (0 : Fin 3) * 1 + 1 * u.val = t.val; omega
    | ⟨1, _⟩ => show win0_0.index t (1 : Fin 3) * 512 + 1 * s.val = s.val; omega
    | ⟨2, _⟩ => show win0_0.index t (2 : Fin 3) * 256 + 1 * d.val = d.val; omega
  rw [he, V_v1_apply]

/-- The block of W at (k, d) is W there. -/
theorem iblk_W (c : Dev nD) (t : Fin cfg0.N) (k : Fin 512) (d : Fin 256) :
    (iblk m c 1 t : S512x256.Idx → EReal) (ix2 k d) = (m ((c : Thread nD τ).loc main_arg1) : S512x256.Idx → EReal) (ix2 k d) := by
  obtain ⟨-, -, -, e0, e1, -⟩ := idx_facts t
  unfold iblk
  rw [View.read_apply]
  show (V m c main_v2 : S512x256.Idx → EReal) (((cfg0.win 1).blk t).view.emb (ix2 k d)) = _
  have he : ((cfg0.win 1).blk t).view.emb (ix2 k d) = ix2 k d := by
    funext a; apply Fin.ext
    match a with
    | ⟨0, _⟩ => show win0_1.index t (0 : Fin 2) * 512 + 1 * k.val = k.val; omega
    | ⟨1, _⟩ => show win0_1.index t (1 : Fin 2) * 256 + 1 * d.val = d.val; omega
  rw [he, V_v2_apply]

/-- Slab t of ANY array of the indicator's shape, read through the window's block at (0, k, s), is the array at
    (t, k, s).  Stated for an arbitrary array so that nothing about the indicator's own contents is ever opened. -/
theorem slab_read (c : Dev nD) (A : Buf (Elt Ideal) ((c : Thread nD τ).loc main_v24)) (t : Fin cfg0.N) (u : Fin 1) (k s : Fin 512) :
    (((cfg0.win 2).blk t).view.read (Elt Ideal) A : S1x512x512.Idx → EReal) (ix3 u k s)
      = (A : S64x512x512.Idx → EReal) (ix3 (batch t) k s) := by
  obtain ⟨-, -, -, -, -, e0, e1, e2, -⟩ := idx_facts t
  rw [View.read_apply]
  show (A : S64x512x512.Idx → EReal) (((cfg0.win 2).blk t).view.emb (ix3 u k s)) = _
  have he : ((cfg0.win 2).blk t).view.emb (ix3 u k s) = ix3 (batch t) k s := by
    funext a; apply Fin.ext
    have hu : u.val = 0 := by omega
    match a with
    | ⟨0, _⟩ => show win0_2.index t (0 : Fin 3) * 1 + 1 * u.val = t.val; omega
    | ⟨1, _⟩ => show win0_2.index t (1 : Fin 3) * 512 + 1 * k.val = k.val; omega
    | ⟨2, _⟩ => show win0_2.index t (2 : Fin 3) * 512 + 1 * s.val = s.val; omega
  rw [he]

/-- Slab t of the indicator at (0, k, s) is the indicator at (t, k, s). -/
theorem iblk_I (c : Dev nD) (t : Fin cfg0.N) (u : Fin 1) (k s : Fin 512) :
    (iblk m c 2 t : S1x512x512.Idx → EReal) (ix3 u k s) = indicator m c (ix3 (batch t) k s) := by
  unfold iblk
  exact slab_read c (V m c (Pipeline.arrRef spec0 2)) t u k s

end Cert.KernelIdeal.ArrayValue

end
-- ==== Proof.KernelArray.lean ====
/-
  From the blocks to the whole result array of the idealized kernel.

  At batch point t the body's one store is `rowOut` of row t of the exchanged M, of W and of slab t of the indicator
  (KernelRow, KernelEntry), and the write-back puts it at slab t of the result.  The 64 slabs tile the result
  array, so it ends holding `resultArr`: at (b, k, s) the row formula of the scores Σ_d W(k,d)·M(s,b,d) and of
  the indicator's slab b.
-/
import proofs.«136677_j962072674434_1_alg».proof.Proof.KernelEntry

set_option maxRecDepth 16384

noncomputable section

namespace Cert.KernelIdeal.ArrayValue

open Cert.KernelIdeal Cert.KernelIdeal.Gen Cert.KernelIdeal.Hand Cert.KernelIdeal.RowValue Cert.EdgeAttn
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## What a point writes back, and the whole array -/

theorem hz3 : (![0, 0, 0] : Fin 3 → Nat) = fun _ => 0 := funext fun a => by fin_cases a <;> rfl
theorem hz2 : (![0, 0] : Fin 2 → Nat) = fun _ => 0 := funext fun a => by fin_cases a <;> rfl

/-- The result array of core c. -/
abbrev G (c : Dev nD) : S64x512x512.Idx → EReal :=
  resultArr (m ((c : Thread nD τ).loc main_arg0)) (m ((c : Thread nD τ).loc main_arg1)) (indicator m c)

/-- The body's one store covers the whole output block, and its loads read the whole input blocks: what the output
    buffer holds after the body is the payload of the three blocks. -/
theorem outBlock_eq (x0 : Vec Ideal S1x512x256 .bf16) (x1 : Vec Ideal S512x256 .bf16) (x2 : Vec Ideal S1x512x512 .bf16) :
    outBlock x0 x1 x2 = k0_pay1 (F := Ideal) x1 x0 x2 := by
  unfold outBlock
  rw [View.canon_unit_zero hz3, View.ld_unit_zero (S := S1x512x256) hz3, View.ld_unit_zero (S := S512x256) hz2,
    View.ld_unit_zero (S := S1x512x512) hz3]

/-- What point t writes back is slab t of the result array. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after_3, outBlock_eq (iblk m c 0 t) (iblk m c 1 t) (iblk m c 2 t)]
  obtain ⟨-, -, -, -, -, -, -, -, e0, e1, e2⟩ := idx_facts t
  funext j
  obtain ⟨u, k, s, rfl⟩ : ∃ (u : Fin 1) (k s : Fin 512), j = ix3 u k s := ⟨j 0, j 1, j 2, eq_ix3 j⟩
  show k0_pay1 (F := Ideal) (iblk m c 1 t) (iblk m c 0 t) (iblk m c 2 t) (ix3 u k s)
    = G m c (((cfg0.win 3).blk t).view.emb (ix3 u k s))
  have he : ((cfg0.win 3).blk t).view.emb (ix3 u k s) = ix3 (batch t) k s := by
    funext a; apply Fin.ext
    have hu : u.val = 0 := by omega
    match a with
    | ⟨0, _⟩ => show win0_3.index t (0 : Fin 3) * 1 + 1 * u.val = t.val; omega
    | ⟨1, _⟩ => show win0_3.index t (1 : Fin 3) * 512 + 1 * k.val = k.val; omega
    | ⟨2, _⟩ => show win0_3.index t (2 : Fin 3) * 512 + 1 * s.val = s.val; omega
  rw [he]
  refine (pay_apply (iblk m c 1 t) (iblk m c 0 t) (iblk m c 2 t) u k s).trans ?_
  show _ = resultAt _ _ _ (batch t) k s
  unfold resultAt
  simp only [iblk_M, iblk_W, iblk_I]

/-- An index is in point t's slab iff its coordinates are in the slab's ranges. -/
theorem mem_blk (t : Fin cfg0.N) (i : S64x512x512.Idx) :
    i ∈ ((cfg0.win 3).blk t).view.set ↔ ∀ a : Fin 3, win0_3.index t a * S1x512x512.size a ≤ (i a).val
      ∧ (i a).val < win0_3.index t a * S1x512x512.size a + S1x512x512.size a := by
  show i ∈ ((View.whole main_v25).slice (win0_3.rect t)).set ↔ _
  rw [View.set_slice_whole, Rect.mem_set_unit]
  exact Iff.rfl

/-- Every index of the result lies in the slab of its batch. -/
theorem covered (i : S64x512x512.Idx) :
    ∃ t : Fin cfg0.N, (cfg0.win 3).flush t = true ∧ i ∈ ((cfg0.win 3).blk t).view.set := by
  have h0 : (i 0).val < 64 := (i 0).isLt
  have h1 : (i 1).val < 512 := (i 1).isLt
  have h2 : (i 2).val < 512 := (i 2).isLt
  let t : Fin cfg0.N := ⟨(i 0).val, lt_of_lt_of_eq h0 (show (64 : ℕ) = cfg0.N from N_0.symm)⟩
  obtain ⟨-, -, -, -, -, -, -, -, e0, e1, e2⟩ := idx_facts t
  have ht : t.val = (i 0).val := rfl
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 512 ≤ (i 2).val ∧ (i 2).val < win0_3.index t (2 : Fin 3) * 512 + 512; omega

/-- The result array after the run. -/
theorem final (c : Dev nD) : (dats m 0 c).arrAt 3 cfg0.N = G m c :=
  (dats m 0 c).arrAt_eq_of_cover 3 (G m c) (fun t _ => flushed_eq m c t) covered

/-- The run of the idealized kernel, read: the result array at `G`, the arguments unchanged. -/
theorem run : θ_run defs (onTc (τ := τ) (main (F := Ideal))) ⟨m, fun _ => 0, ρ⟩ fun r => ∀ c : Dev nD,
      r.2.mem ((c.tc : Thread nD τ).loc main_v25) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1 3).trans (final m c), args_kept m r h c⟩) (run_main m ρ)

end Cert.KernelIdeal.ArrayValue

end
-- ==== Proof.LibMaxFold.lean ====
/-
  Maxima folded over a finite index set, as both programs' softmax takes them: the fold of `max` over the set,
  starting from some value `b` (for the programs, −∞).  Such a fold lies above its starting value and above
  every entry, and nothing smaller does: it is the least upper bound of `b` and the family.  Two consequences are
  used: taking one more maximum with the starting value changes nothing, whatever that value is; and the fold
  only depends on the family through its values, so it may be re-indexed along a bijection.
-/
import Mathlib.Data.EReal.Basic
import Mathlib.Data.Finset.Fold

namespace Cert.LibMaxFold

variable {α : Type*} [LinearOrder α] {ι : Type*}

/-- A fold of `max` lies above the value it starts from. -/
theorem start_le_fold (s : Finset ι) (b : α) (f : ι → α) : b ≤ s.fold max b f :=
  (Finset.le_fold_max b).mpr (Or.inl le_rfl)

/-- One more maximum with the starting value changes nothing. -/
theorem max_start_fold (s : Finset ι) (b : α) (f : ι → α) : max b (s.fold max b f) = s.fold max b f :=
  max_eq_right (start_le_fold s b f)

/-- The same with the operands in the other order. -/
theorem max_fold_start (s : Finset ι) (b : α) (f : ι → α) : max (s.fold max b f) b = s.fold max b f :=
  max_eq_left (start_le_fold s b f)

/-- Two families with the same values have the same fold. -/
theorem fold_congr (s : Finset ι) (b : α) {f g : ι → α} (h : ∀ i ∈ s, f i = g i) :
    s.fold max b f = s.fold max b g :=
  Finset.fold_congr h

end Cert.LibMaxFold
-- ==== Proof.RefRow.lean ====
/-
  The reference's result, read at an index, over the extended reals.

  The reference computes the scores for all batches at once, arranged [s, b, k]; its softmax runs along the FIRST
  axis, and a transpose brings the result to [b, k, s].  Read at (b, k, s) through the generated stages, each
  reduction along s is the row maximum or the row sum of the batch's score matrix `sc b k s`, so the result is
  the row formula `rowOut` of those scores and of the reference's 0/1 indicator array.  The reference's maximum is
  taken once more against −∞ (the start of the fold it already ran), which changes nothing.  Its second mask —
  1 scattered into a constant 1e-10 array at the same index triples — is the edge weight of the indicator.
-/
import proofs.«136677_j962072674434_1_alg».proof.Proof.Gen.ReferenceIdeal.Read
import proofs.«136677_j962072674434_1_alg».proof.Proof.Spec
import proofs.«136677_j962072674434_1_alg».proof.Proof.LibMaxFold

noncomputable section

namespace Cert.ReferenceIdeal.RowValue

open Cert.ReferenceIdeal Cert.ReferenceIdeal.Gen Cert.ReferenceIdeal.Read Cert.EdgeAttn
open Idealize.ShloMosaic Idealize.ShloMosaic.ValueIdx

variable (x0 : (⟨S512x64x256, .f32⟩ : BufTy).Contents (Elt Ideal)) (x1 : (⟨S512x256, .f32⟩ : BufTy).Contents (Elt Ideal))
  (x2 x3 x4 : (⟨S524288, .i32⟩ : BufTy).Contents (Elt Ideal))

/-- The score of batch b, key row k, position s, in the arrangement of the row formula. -/
def sc (b : Fin 64) : Fin 512 → Fin 512 → EReal := fun k s => val_main_v0 (F := Ideal) x0 x1 (ix3 s b k)

/-- The reference's 0/1 indicator of batch b. -/
def ind (b : Fin 64) : Fin 512 → Fin 512 → EReal := fun k s => val_main_v56 (F := Ideal) x2 x3 x4 (ix3 b k s)

/-- The score is the sum over the features of M(s, b, d) · W(k, d); written with W first, as the kernel has it. -/
theorem sc_eq (b : Fin 64) (k s : Fin 512) :
    sc x0 x1 b k s = ∑ d : Fin 256, x1 (ix2 k d) * x0 (ix3 s b d) := by
  unfold sc
  rw [val_main_v0_apply]
  refine Finset.sum_congr rfl fun d _ => ?_
  have hl : lidx_main_v0 (ix3 s b k) d = ix3 s b d := by
    funext a; match a with | ⟨0, _⟩ => rfl | ⟨1, _⟩ => rfl | ⟨2, _⟩ => rfl
  have hr : ridx_main_v0 (ix3 s b k) d = ix2 k d := by
    funext a; match a with | ⟨0, _⟩ => rfl | ⟨1, _⟩ => rfl
  rw [hl, hr, mul_comm]

/-- The maximum along s, taken from −∞ and once more against −∞, is the row maximum. -/
theorem v3_at (b : Fin 64) (k : Fin 512) :
    val_main_v3 (F := Ideal) x0 x1 (ix2 b k) = rowMax (sc x0 x1 b) k := by
  have hred : S512x64x512.Reduces [0] S64x512 := by decide
  have h1 : val_main_v1 (F := Ideal) x0 x1 (ix2 b k) = rowMax (sc x0 x1 b) k := by
    unfold val_main_v1
    refine (Host.reduce_eq_fold_single (α := Ideal .f32) (s := S512x64x512) (t := S64x512) (u := S_) FloatOps.maximumf
      (val_main_v0 (F := Ideal) x0 x1 : S512x64x512.Idx → Ideal .f32) (val_main_cst (F := Ideal) : S_.Idx → Ideal .f32)
      reducesTo_S512x64x512_S64x512_d0 hred h_S_ (ix2 b k)).trans ?_
    have hf : (val_main_v0 (F := Ideal) x0 x1 ∘ hred.lift (ix2 b k)) = fun s : Fin 512 => sc x0 x1 b k s :=
      funext fun s => congrArg (val_main_v0 (F := Ideal) x0 x1) (funext fun a => Fin.ext (by
        match a with | ⟨0, _⟩ => rfl | ⟨1, _⟩ => rfl | ⟨2, _⟩ => rfl))
    unfold rowMax
    exact congrArg (fun f => Finset.fold max negInf f (Finset.univ : Finset (Fin 512))) hf
  rw [val_main_v3_apply, h1, val_main_v2_apply]
  exact Cert.LibMaxFold.max_start_fold _ _ _

/-- The exponential at (s, b, k). -/
theorem v7_at (s : Fin 512) (b : Fin 64) (k : Fin 512) :
    val_main_v7 (F := Ideal) x0 x1 (ix3 s b k) = Ideal.exp (sc x0 x1 b k s - rowMax (sc x0 x1 b) k) := by
  rw [val_main_v7_apply, val_main_v6_apply, val_main_v5_apply, val_main_v4_apply]
  have hi : idx_main_v4 (idx_main_v5 (ix3 s b k)) = ix2 b k := by
    funext a; match a with | ⟨0, _⟩ => rfl | ⟨1, _⟩ => rfl
  rw [hi, v3_at]
  rfl

/-- The sum of the exponentials along s. -/
theorem v8_at (b : Fin 64) (k : Fin 512) :
    val_main_v8 (F := Ideal) x0 x1 (ix2 b k) = ∑ s : Fin 512, Ideal.exp (sc x0 x1 b k s - rowMax (sc x0 x1 b) k) := by
  rw [val_main_v8_apply, val_main_cst_1_apply]
  have hz : (FloatOps.ofBits (F := Ideal) .f32 0x00000000#32 : EReal) = 0 := f32_zero
  rw [hz, zero_add]
  refine Finset.sum_congr rfl fun s _ => ?_
  have hi : idx_main_v8 (ix2 b k) s = ix3 s b k := by
    funext a; match a with | ⟨0, _⟩ => rfl | ⟨1, _⟩ => rfl | ⟨2, _⟩ => rfl
  rw [hi, v7_at]

/-- The softmax, transposed to (b, k, s). -/
theorem v12_at (b : Fin 64) (k s : Fin 512) :
    val_main_v12 (F := Ideal) x0 x1 (ix3 b k s) = rowSoft (sc x0 x1 b) k s := by
  rw [val_main_v12_apply]
  have hi : idx_main_v12 (ix3 b k s) = ix3 s b k := by
    funext a; match a with | ⟨0, _⟩ => rfl | ⟨1, _⟩ => rfl | ⟨2, _⟩ => rfl
  rw [hi, val_main_v11_apply, val_main_v10_apply, val_main_v9_apply]
  have hj : idx_main_v9 (idx_main_v10 (ix3 s b k)) = ix2 b k := by
    funext a; match a with | ⟨0, _⟩ => rfl | ⟨1, _⟩ => rfl
  rw [hj, v7_at, v8_at]
  rfl

/-! ## The two masks -/

theorem v13_eq : val_main_v13 (F := Ideal) = fun _ => Ideal.ofBits .f32 0x2EDBE6FF#32 :=
  funext fun i => by rw [val_main_v13_apply]; rfl
theorem v35_eq : val_main_v35 (F := Ideal) = fun _ => (0 : EReal) :=
  funext fun i => by rw [val_main_v35_apply]; exact f32_zero
theorem v33_eq : val_main_v33 (F := Ideal) = fun _ => (1 : EReal) :=
  funext fun i => by rw [val_main_v33_apply]; exact f32_one
theorem v55_eq : val_main_v55 (F := Ideal) = fun _ => (1 : EReal) :=
  funext fun i => by rw [val_main_v55_apply]; exact f32_one
/-- Both scatters read the same index triples. -/
theorem v32_eq : val_main_v32 (F := Ideal) x2 x3 x4 = val_main_v54 (F := Ideal) x2 x3 x4 := rfl

/-- The 1e-10 / 1 mask is the edge weight of the 0/1 indicator. -/
theorem v34_eq : val_main_v34 (F := Ideal) x2 x3 x4 = fun i => edgeWeight (val_main_v56 (F := Ideal) x2 x3 x4 i) := by
  unfold val_main_v34 val_main_v56
  rw [v13_eq, v35_eq, v33_eq, v55_eq, v32_eq]
  exact weight_of_indicator _ _

/-! ## The result -/

theorem v57_at (b : Fin 64) (k s : Fin 512) :
    val_main_v57 (F := Ideal) x0 x1 x2 x3 x4 (ix3 b k s) = rowMasked (sc x0 x1 b) (ind x2 x3 x4 b) k s := by
  rw [val_main_v57_apply, v12_at, v34_eq]
  rfl

theorem v58_at (b : Fin 64) (k : Fin 512) :
    val_main_v58 (F := Ideal) x0 x1 x2 x3 x4 (ix2 b k) = ∑ s : Fin 512, rowMasked (sc x0 x1 b) (ind x2 x3 x4 b) k s := by
  rw [val_main_v58_apply, val_main_cst_17_apply]
  have hz : (FloatOps.ofBits (F := Ideal) .f32 0x00000000#32 : EReal) = 0 := f32_zero
  rw [hz, zero_add]
  refine Finset.sum_congr rfl fun s _ => ?_
  have hi : idx_main_v58 (ix2 b k) s = ix3 b k s := by
    funext a; match a with | ⟨0, _⟩ => rfl | ⟨1, _⟩ => rfl | ⟨2, _⟩ => rfl
  rw [hi, v57_at]

/-- The reference's result at (b, k, s): the row formula of the batch's scores and indicator. -/
theorem v62_at (b : Fin 64) (k s : Fin 512) :
    val_main_v62 (F := Ideal) x0 x1 x2 x3 x4 (ix3 b k s) = rowOut (sc x0 x1 b) (ind x2 x3 x4 b) k s := by
  rw [val_main_v62_apply, val_main_v61_apply, val_main_v60_apply, val_main_v59_apply]
  have hi : idx_main_v59 (idx_main_v60 (ix3 b k s)) = ix2 b k := by
    funext a; match a with | ⟨0, _⟩ => rfl | ⟨1, _⟩ => rfl
  rw [hi, v57_at, v58_at]
  rfl

end Cert.ReferenceIdeal.RowValue

end
-- ==== Proof.Claims.lean ====
/-
  The five claims.

  The three frames are the runs already proved, with the results dropped.  Nothing was rewritten between the
  kernel and its idealization, so `preserves` has no conjunct.  For `algebraic`: the idealized kernel ends with
  the result array `G` (KernelArray), the reference with its last stage (the generated run), which read at
  (b, k, s) is the same row formula (RefRow) of the same scores — the products commuted — and of an indicator
  array that is the kernel's: both are 1 scattered into zeros at the same index triples, the kernel's in bf16,
  where 0 and 1 are the same extended reals.
-/
import proofs.«136677_j962072674434_1_alg».proof.Defs
import proofs.«136677_j962072674434_1_alg».proof.Proof.FrameK
import proofs.«136677_j962072674434_1_alg».proof.Proof.FrameKI
import proofs.«136677_j962072674434_1_alg».proof.Proof.KernelArray
import proofs.«136677_j962072674434_1_alg».proof.Proof.RefRow
import proofs.«136677_j962072674434_1_alg».proof.Proof.Gen.Pre_finite_inputs
import proofs.«136677_j962072674434_1_alg».proof.Proof.Gen.Kernel
import proofs.«136677_j962072674434_1_alg».proof.Proof.Gen.KernelIdeal
import proofs.«136677_j962072674434_1_alg».proof.Proof.Gen.ReferenceIdeal
import proofs.«136677_j962072674434_1_alg».proof.Proof.Gen.ReferenceIdeal.Run
import proofs.«136677_j962072674434_1_alg».proof.Proof.Gen.ReferenceIdeal.Read

set_option maxRecDepth 16384

noncomputable section

namespace Cert.Proof.Claims

open Idealize.ShloMosaic Idealize.ShloMosaic.TcCoe Idealize.SL.Sem Idealize.ShloMosaic.StableHlo Idealize.ShloMosaic.ValueIdx
open Cert.EdgeAttn

/-! ## The indicator arrays agree -/

section Indicator
open Cert.KernelIdeal Cert.KernelIdeal.Gen Cert.KernelIdeal.Hand

set_option maxHeartbeats 4000000 in
/-- The kernel's edge indicator is the reference's: the same scatter of 1 into zeros, read over the extended reals. -/
theorem indicator_eq (m : (ℓ : Loc nD τ sig) → Buf (Elt Ideal) ℓ) (c : Dev nD) :
    Cert.KernelIdeal.ArrayValue.indicator m c
      = Cert.ReferenceIdeal.Read.val_main_v56 (F := Ideal) (m ((c : Thread nD τ).loc main_arg2)) (m ((c : Thread nD τ).loc main_arg3))
          (m ((c : Thread nD τ).loc main_arg4)) := by
  unfold Cert.ReferenceIdeal.Read.val_main_v56
  rw [Cert.ReferenceIdeal.RowValue.v35_eq, Cert.ReferenceIdeal.RowValue.v55_eq]
  show (V m c main_v24 : S64x512x512.Idx → EReal) = _
  dsimp only [V, hostOps0]
  after_results
  show Host.scatter _ (fun _ b => b) (fun _ => Ideal.ofBits .bf16 0x0000#16) _ (fun _ => Ideal.ofBits .bf16 0x3F80#16) = _
  rw [bf16_zero, bf16_one]
  rfl

end Indicator

/-! ## The reference's result is the kernel's -/

section Result
open Cert.KernelIdeal

theorem ref_eq_G (m : (ℓ : Loc nD τ sig) → Buf (Elt Ideal) ℓ) (c : Dev nD) :
    Cert.ReferenceIdeal.Read.val_main_v62 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
      = Cert.KernelIdeal.ArrayValue.G m c := by
  funext i
  obtain ⟨b, k, s, rfl⟩ : ∃ (b : Fin 64) (k s : Fin 512), i = ix3 b k s := ⟨i 0, i 1, i 2, eq_ix3 i⟩
  rw [Cert.ReferenceIdeal.RowValue.v62_at]
  show _ = resultAt _ _ _ b k s
  unfold resultAt
  have hsc : Cert.ReferenceIdeal.RowValue.sc (m ((c : Thread nD τ).loc main_arg0)) (m ((c : Thread nD τ).loc main_arg1)) b = _ :=
    funext fun k => funext fun s => Cert.ReferenceIdeal.RowValue.sc_eq _ _ b k s
  have hind : Cert.ReferenceIdeal.RowValue.ind (m ((c : Thread nD τ).loc main_arg2)) (m ((c : Thread nD τ).loc main_arg3))
      (m ((c : Thread nD τ).loc main_arg4)) b = fun k s => Cert.KernelIdeal.ArrayValue.indicator m c (ix3 b k s) := by
    rw [indicator_eq]; rfl
  rw [hsc, hind]

end Result

/-! ## The claims -/

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.ArrayValue.G m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v62_eq, (hagree c).1, (hagree c).2.1, (hagree c).2.2.1, (hagree c).2.2.2.1, (hagree c).2.2.2.2.1]
  exact ref_eq_G m c

end Cert.Proof.Claims

end
-- ==== Proof.lean ====
/- The proof of `Cert.Claim`: a masked edge attention kernel against its jnp reference.

   Per batch b the kernel computes, for key row k and position s, the softmax along s of the scores
   Σ_d W(k,d)·M(s,b,d), weights it by 1 on a listed edge (b,k,s) and by 1e-10 elsewhere, renormalises along s and
   multiplies by the 0/1 edge indicator; the reference computes the same for all batches at once in another
   arrangement.  Over the extended reals the two results are one function of the arguments:

   * Proof/Spec.lean — the row formula, and why the reference's 1e-10 / 1 mask is the edge weight of the indicator
     (a scatter that writes the update commutes with a pointwise map: Proof/LibScatterMap.lean);
   * Proof/FrameK.lean, Proof/FrameKI.lean — both kernel programs run to the end and leave the arguments unchanged;
   * Proof/KernelRow.lean, Proof/KernelArray.lean — what the idealized kernel's body stores, and the result array;
   * Proof/RefRow.lean — the reference's stages read at an index;
   * Proof/Claims.lean — the five claims.
   Proof/Lib*.lean are general lemmas about a product contracting both last axes, row sums, the column layout of a
   keepdims reduction, folds of max, and scatters that write their update. -/
import proofs.«136677_j962072674434_1_alg».proof.Defs
import proofs.«136677_j962072674434_1_alg».proof.Proof.Claims
import proofs.«136677_j962072674434_1_alg».proof.Proof.Gen.Kernel
import proofs.«136677_j962072674434_1_alg».proof.Proof.Gen.Kernel.Skeleton
import proofs.«136677_j962072674434_1_alg».proof.Proof.Gen.Kernel.Launch
import proofs.«136677_j962072674434_1_alg».proof.Proof.Gen.Kernel.Points
import proofs.«136677_j962072674434_1_alg».proof.Proof.Gen.KernelIdeal
import proofs.«136677_j962072674434_1_alg».proof.Proof.Gen.KernelIdeal.Skeleton
import proofs.«136677_j962072674434_1_alg».proof.Proof.Gen.KernelIdeal.Launch
import proofs.«136677_j962072674434_1_alg».proof.Proof.Gen.KernelIdeal.Points
import proofs.«136677_j962072674434_1_alg».proof.Proof.Gen.ReferenceIdeal
import proofs.«136677_j962072674434_1_alg».proof.Proof.Gen.Pre_finite_inputs
import proofs.«136677_j962072674434_1_alg».proof.Proof.Gen.ReferenceIdeal.Run
import proofs.«136677_j962072674434_1_alg».proof.Proof.Gen.ReferenceIdeal.Read
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
